-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4000 : Shape := ⟨3, ![16, 512, 4000]⟩
abbrev S16x2 : Shape := ⟨2, ![16, 2]⟩
abbrev S_ : Shape := ⟨0, ![]⟩

class Facts : Prop where
  bcast_S_S16x512x4000 : S_.BroadcastsInDim S16x512x4000 (![] : Fin 0 → Fin S16x512x4000.rank)
  reducesTo_S16x512x4000_S_d0_1_2 : S16x512x4000.ReducesTo [0, 1, 2] S_
  h_S_ : 0 < S_.numel

variable [Facts]

def fn {F : FTy → Type} [FloatOps F] (main_arg0 : FVec F S16x512x4000 .f32) (main_arg1 : IVec S16x2 32) (main_arg2 : IVec S16x2 32) : IVec S_ 1 :=
  let main_v0 : FVec F S16x512x4000 .f32 := Host.absf main_arg0
  let main_cst : FVec F S_ .f32 := constant S_ .f32 0x7F800000#32
  let main_v1 : FVec F S16x512x4000 .f32 := broadcastInDim S16x512x4000 ![] bcast_S_S16x512x4000 main_cst
  let main_v2 : IVec S16x512x4000 1 := cmpf .olt main_v0 main_v1
  let main_c : IVec S_ 1 := constantI S_ 1 1#1
  let main_v3 : IVec S_ 1 := (fun x v => Host.reduce IntOp.andi x v reducesTo_S16x512x4000_S_d0_1_2 h_S_) main_v2 main_c
  main_v3
-- ==== Kernel.lean ====
abbrev S16x512x4000 : Shape := ⟨3, ![16, 512, 4000]⟩
abbrev S16x2 : Shape := ⟨2, ![16, 2]⟩
abbrev S_ : Shape := ⟨0, ![]⟩
abbrev S4000 : Shape := ⟨1, ![4000]⟩
abbrev S16x2x1 : Shape := ⟨3, ![16, 2, 1]⟩
abbrev S1x1x4000 : Shape := ⟨3, ![1, 1, 4000]⟩
abbrev S16x2x4000 : Shape := ⟨3, ![16, 2, 4000]⟩
abbrev S16x4000 : Shape := ⟨2, ![16, 4000]⟩
abbrev S16x1x4000 : Shape := ⟨3, ![16, 1, 4000]⟩
abbrev S1x128x4000 : Shape := ⟨3, ![1, 128, 4000]⟩

abbrev nBuf : Space → Nat
  | .hbm => 28
  | .vmem => 6
  | .smem => 0
  | _ => 0

abbrev bufTy : (tb : Table) → Fin (tcTables nBuf tb) → BufTy
  | .hbm, ⟨0, _⟩ => ⟨S16x512x4000, .f32⟩
  | .hbm, ⟨1, _⟩ => ⟨S16x2, .i32⟩
  | .hbm, ⟨2, _⟩ => ⟨S16x2, .i32⟩
  | .hbm, ⟨3, _⟩ => ⟨S_, .i32⟩
  | .hbm, ⟨4, _⟩ => ⟨S16x2, .i32⟩
  | .hbm, ⟨5, _⟩ => ⟨S16x2, .i32⟩
  | .hbm, ⟨6, _⟩ => ⟨S4000, .i32⟩
  | .hbm, ⟨7, _⟩ => ⟨S16x2x1, .i32⟩
  | .hbm, ⟨8, _⟩ => ⟨S16x2, .i32⟩
  | .hbm, ⟨9, _⟩ => ⟨S16x2x1, .i32⟩
  | .hbm, ⟨10, _⟩ => ⟨S1x1x4000, .i32⟩
  | .hbm, ⟨11, _⟩ => ⟨S16x2x4000, .i32⟩
  | .hbm, ⟨12, _⟩ => ⟨S16x2x4000, .i32⟩
  | .hbm, ⟨13, _⟩ => ⟨S16x2x4000, .i1⟩
  | .hbm, ⟨14, _⟩ => ⟨S1x1x4000, .i32⟩
  | .hbm, ⟨15, _⟩ => ⟨S16x2x4000, .i32⟩
  | .hbm, ⟨16, _⟩ => ⟨S16x2x4000, .i32⟩
  | .hbm, ⟨17, _⟩ => ⟨S16x2x4000, .i1⟩
  | .hbm, ⟨18, _⟩ => ⟨S16x2x4000, .i1⟩
  | .hbm, ⟨19, _⟩ => ⟨S_, .i1⟩
  | .hbm, ⟨20, _⟩ => ⟨S16x4000, .i1⟩
  | .hbm, ⟨21, _⟩ => ⟨S_, .f32⟩
  | .hbm, ⟨22, _⟩ => ⟨S_, .f32⟩
  | .hbm, ⟨23, _⟩ => ⟨S16x4000, .f32⟩
  | .hbm, ⟨24, _⟩ => ⟨S16x4000, .f32⟩
  | .hbm, ⟨25, _⟩ => ⟨S16x4000, .f32⟩
  | .hbm, ⟨26, _⟩ => ⟨S16x1x4000, .f32⟩
  | .hbm, ⟨27, _⟩ => ⟨S16x512x4000, .f32⟩
  | .local _ .vmem, ⟨0, _⟩ => ⟨S1x128x4000, .f32⟩
  | .local _ .vmem, ⟨1, _⟩ => ⟨S1x128x4000, .f32⟩
  | .local _ .vmem, ⟨2, _⟩ => ⟨S1x1x4000, .f32⟩
  | .local _ .vmem, ⟨3, _⟩ => ⟨S1x1x4000, .f32⟩
  | .local _ .vmem, ⟨4, _⟩ => ⟨S1x128x4000, .f32⟩
  | .local _ .vmem, ⟨5, _⟩ => ⟨S1x128x4000, .f32⟩
  | _, _ => ⟨S16x512x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_cst : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16x2 : S_.BroadcastsInDim S16x2 (![] : Fin 0 → Fin S16x2.rank)
  bcast_S16x2_S16x2x1_0_1 : S16x2.BroadcastsInDim S16x2x1 (![0, 1] : Fin 2 → Fin S16x2x1.rank)
  bcast_S4000_S1x1x4000_2 : S4000.BroadcastsInDim S1x1x4000 (![2] : Fin 1 → Fin S1x1x4000.rank)
  bcast_S1x1x4000_S16x2x4000_0_1_2 : S1x1x4000.BroadcastsInDim S16x2x4000 (![0, 1, 2] : Fin 3 → Fin S16x2x4000.rank)
  bcast_S16x2x1_S16x2x4000_0_1_2 : S16x2x1.BroadcastsInDim S16x2x4000 (![0, 1, 2] : Fin 3 → Fin S16x2x4000.rank)
  reducesTo_S16x2x4000_S16x4000_d1 : S16x2x4000.ReducesTo [1] S16x4000
  h_S_ : 0 < S_.numel
  bcast_S_S16x4000 : S_.BroadcastsInDim S16x4000 (![] : Fin 0 → Fin S16x4000.rank)
  bcast_S16x4000_S16x1x4000_0_2 : S16x4000.BroadcastsInDim S16x1x4000 (![0, 2] : Fin 2 → Fin S16x1x4000.rank)
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x1x4000 : S1x1x4000.ShapeCasts S1x1x4000
  broadcasts_S1x1x4000_S1x128x4000 : S1x1x4000.Broadcasts S1x128x4000
  inb_S1x128x4000_S1x128x4000_0_0_0 : ∀ a, (![0, 0, 0] : Fin 3 → Nat) a + S1x128x4000.size a ≤ S1x128x4000.size a
  h_S1x128x4000 : 0 < S1x128x4000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4000.size a ≤ S16x512x4000.size a
  hwx0_0 : ∀ i : grid0.Coords, EltTy.bits .f32 = 32 ∨ (Rect.block (s := S16x512x4000) S1x128x4000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4000.size a ≤ S16x1x4000.size a
  hwx0_1 : ∀ i : grid0.Coords, EltTy.bits .f32 = 32 ∨ (Rect.block (s := S16x1x4000) S1x1x4000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4000.size a ≤ S16x512x4000.size a
  hwx0_2 : ∀ i : grid0.Coords, EltTy.bits .f32 = 32 ∨ (Rect.block (s := S16x512x4000) S1x128x4000.size (cc0_transform_2 i) (hinb0_2 i)).WholeWords (EltTy.packing .f32)

variable [Facts₀]

abbrev win0_0 : Pipeline.Window sig grid0 :=
  Pipeline.Window.ofSpec (Memref.whole main_arg0) S1x128x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1x4000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128x4000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x4000 : Shape := ⟨3, ![16, 512, 4000]⟩
abbrev S16x2 : Shape := ⟨2, ![16, 2]⟩
abbrev S_ : Shape := ⟨0, ![]⟩
abbrev S4000 : Shape := ⟨1, ![4000]⟩
abbrev S16x2x1 : Shape := ⟨3, ![16, 2, 1]⟩
abbrev S1x1x4000 : Shape := ⟨3, ![1, 1, 4000]⟩
abbrev S16x2x4000 : Shape := ⟨3, ![16, 2, 4000]⟩
abbrev S16x4000 : Shape := ⟨2, ![16, 4000]⟩
abbrev S16x1x4000 : Shape := ⟨3, ![16, 1, 4000]⟩

abbrev nBuf : Space → Nat
  | .hbm => 29
  | .vmem => 0
  | .smem => 0
  | _ => 0

abbrev bufTy : (tb : Table) → Fin (tcTables nBuf tb) → BufTy
  | .hbm, ⟨0, _⟩ => ⟨S16x512x4000, .f32⟩
  | .hbm, ⟨1, _⟩ => ⟨S16x2, .i32⟩
  | .hbm, ⟨2, _⟩ => ⟨S16x2, .i32⟩
  | .hbm, ⟨3, _⟩ => ⟨S_, .i32⟩
  | .hbm, ⟨4, _⟩ => ⟨S16x2, .i32⟩
  | .hbm, ⟨5, _⟩ => ⟨S16x2, .i32⟩
  | .hbm, ⟨6, _⟩ => ⟨S4000, .i32⟩
  | .hbm, ⟨7, _⟩ => ⟨S16x2x1, .i32⟩
  | .hbm, ⟨8, _⟩ => ⟨S16x2, .i32⟩
  | .hbm, ⟨9, _⟩ => ⟨S16x2x1, .i32⟩
  | .hbm, ⟨10, _⟩ => ⟨S1x1x4000, .i32⟩
  | .hbm, ⟨11, _⟩ => ⟨S16x2x4000, .i32⟩
  | .hbm, ⟨12, _⟩ => ⟨S16x2x4000, .i32⟩
  | .hbm, ⟨13, _⟩ => ⟨S16x2x4000, .i1⟩
  | .hbm, ⟨14, _⟩ => ⟨S1x1x4000, .i32⟩
  | .hbm, ⟨15, _⟩ => ⟨S16x2x4000, .i32⟩
  | .hbm, ⟨16, _⟩ => ⟨S16x2x4000, .i32⟩
  | .hbm, ⟨17, _⟩ => ⟨S16x2x4000, .i1⟩
  | .hbm, ⟨18, _⟩ => ⟨S16x2x4000, .i1⟩
  | .hbm, ⟨19, _⟩ => ⟨S_, .i1⟩
  | .hbm, ⟨20, _⟩ => ⟨S16x4000, .i1⟩
  | .hbm, ⟨21, _⟩ => ⟨S_, .f32⟩
  | .hbm, ⟨22, _⟩ => ⟨S_, .f32⟩
  | .hbm, ⟨23, _⟩ => ⟨S16x4000, .f32⟩
  | .hbm, ⟨24, _⟩ => ⟨S16x4000, .f32⟩
  | .hbm, ⟨25, _⟩ => ⟨S16x4000, .f32⟩
  | .hbm, ⟨26, _⟩ => ⟨S16x1x4000, .f32⟩
  | .hbm, ⟨27, _⟩ => ⟨S16x512x4000, .f32⟩
  | .hbm, ⟨28, _⟩ => ⟨S16x512x4000, .f32⟩
  | _, _ => ⟨S16x512x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_cst : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S16x2 : S_.BroadcastsInDim S16x2 (![] : Fin 0 → Fin S16x2.rank)
  bcast_S16x2_S16x2x1_0_1 : S16x2.BroadcastsInDim S16x2x1 (![0, 1] : Fin 2 → Fin S16x2x1.rank)
  bcast_S4000_S1x1x4000_2 : S4000.BroadcastsInDim S1x1x4000 (![2] : Fin 1 → Fin S1x1x4000.rank)
  bcast_S1x1x4000_S16x2x4000_0_1_2 : S1x1x4000.BroadcastsInDim S16x2x4000 (![0, 1, 2] : Fin 3 → Fin S16x2x4000.rank)
  bcast_S16x2x1_S16x2x4000_0_1_2 : S16x2x1.BroadcastsInDim S16x2x4000 (![0, 1, 2] : Fin 3 → Fin S16x2x4000.rank)
  reducesTo_S16x2x4000_S16x4000_d1 : S16x2x4000.ReducesTo [1] S16x4000
  h_S_ : 0 < S_.numel
  bcast_S_S16x4000 : S_.BroadcastsInDim S16x4000 (![] : Fin 0 → Fin S16x4000.rank)
  bcast_S16x4000_S16x1x4000_0_2 : S16x4000.BroadcastsInDim S16x1x4000 (![0, 2] : Fin 2 → Fin S16x1x4000.rank)
  bcast_S16x1x4000_S16x512x4000_0_1_2 : S16x1x4000.BroadcastsInDim S16x512x4000 (![0, 1, 2] : Fin 3 → Fin S16x512x4000.rank)

variable [Facts₀]

class Facts : Prop extends Facts₀ where

variable [Facts]
-- ==== Proof.MaskSpec.lean ====
/-
  Time-span masking of a signal x[b, c, t] (16 batches, 512 channels, 4000 time steps).

  Each batch b carries two spans; span j of batch b starts at time starts[b, j] and lasts widths[b, j] + 1 steps, so it
  is the half-open interval  starts[b, j] ≤ t < starts[b, j] + (widths[b, j] + 1)  of 32-bit signed integers. A time step
  is MASKED in batch b when it lies in one of the batch's two spans; the keep factor is 0 at a masked step and 1 elsewhere,

      keep[b, 0, t] = if (∃ j, starts[b, j] ≤ t < starts[b, j] + widths[b, j] + 1) then 0 else 1,

  stored as a [16, 1, 4000] array (one row per batch), and the result is

      out[b, c, t] = x[b, c, t] · keep[b, 0, t].

  This module states both as functions over literal shapes: `keep` of the two integer arrays, spelt with the host
  operations that compute it (an iota for the clock, comparisons, an or-reduction over the two spans, a select between the
  two float constants), and `masked`, the product read index by index, with the one law used later: multiplying by the keep
  rows repeated over the channel axis is `masked`. Nothing here opens `keep`: both programs compute it by the same
  operations, so it is carried as one term.
-/
import Idealize.ShloMosaic.PureOps.Ideal
import Idealize.ShloMosaic.Lib.ValueIdx
import Idealize.ShloMosaic.Lib.Pipeline.Value

noncomputable section

namespace TimeMask

open Idealize.ShloMosaic

/-! ## The shapes -/

/-- The signal: batch × channel × time. -/
abbrev Signal : Shape := ⟨3, ![16, 512, 4000]⟩
/-- Two spans per batch. -/
abbrev Spans : Shape := ⟨2, ![16, 2]⟩
/-- A single number. -/
abbrev One : Shape := ⟨0, ![]⟩
/-- The clock: one entry per time step. -/
abbrev Clock : Shape := ⟨1, ![4000]⟩
/-- The spans as a column, ready to be compared against every time step. -/
abbrev SpansCol : Shape := ⟨3, ![16, 2, 1]⟩
/-- The clock as a row, ready to be compared against every span. -/
abbrev ClockRow : Shape := ⟨3, ![1, 1, 4000]⟩
/-- One entry per batch, span and time step. -/
abbrev SpanGrid : Shape := ⟨3, ![16, 2, 4000]⟩
/-- One entry per batch and time step. -/
abbrev Rows : Shape := ⟨2, ![16, 4000]⟩
/-- One keep row per batch, with a unit channel axis. -/
abbrev KeepRows : Shape := ⟨3, ![16, 1, 4000]⟩

/-! ## The shape relations the operations ask for -/

theorem one_to_spans : One.BroadcastsInDim Spans (![] : Fin 0 → Fin Spans.rank) := by decide
theorem spans_to_col : Spans.BroadcastsInDim SpansCol (![0, 1] : Fin 2 → Fin SpansCol.rank) := by decide
theorem clock_to_row : Clock.BroadcastsInDim ClockRow (![2] : Fin 1 → Fin ClockRow.rank) := by decide
theorem row_to_grid : ClockRow.BroadcastsInDim SpanGrid (![0, 1, 2] : Fin 3 → Fin SpanGrid.rank) := by decide
theorem col_to_grid : SpansCol.BroadcastsInDim SpanGrid (![0, 1, 2] : Fin 3 → Fin SpanGrid.rank) := by decide
theorem grid_to_rows : SpanGrid.ReducesTo [1] Rows := by decide
theorem one_pos : 0 < One.numel := by decide
theorem one_to_rows : One.BroadcastsInDim Rows (![] : Fin 0 → Fin Rows.rank) := by decide
theorem rows_to_keep : Rows.BroadcastsInDim KeepRows (![0, 2] : Fin 2 → Fin KeepRows.rank) := by decide

variable {F : FTy → Type} [FloatOps F]

/-! ## The keep mask -/

/-- The length of each span: widths + 1. -/
def spanLen (widths : IVec Spans 32) : IVec Spans 32 :=
  addi widths (broadcastInDim Spans ![] one_to_spans (constantI One 32 1#32))

/-- The first time step past each span: starts + (widths + 1). -/
def spanEnd (widths starts : IVec Spans 32) : IVec Spans 32 :=
  addi starts (spanLen widths)

/-- The time step t at every (batch, span, t). -/
def clock : IVec SpanGrid 32 :=
  broadcastInDim SpanGrid ![0, 1, 2] row_to_grid (broadcastInDim ClockRow ![2] clock_to_row (iotaInDim Clock 32 0))

/-- A per-span integer at every (batch, span, t). -/
def overTime (v : IVec Spans 32) : IVec SpanGrid 32 :=
  broadcastInDim SpanGrid ![0, 1, 2] col_to_grid (broadcastInDim SpansCol ![0, 1] spans_to_col v)

/-- Whether time step t lies in span j of batch b: starts ≤ t (signed) and t < starts + widths + 1 (signed). -/
def inSpan (widths starts : IVec Spans 32) : IVec SpanGrid 1 :=
  andi (cmpi .sge clock (overTime starts)) (cmpi .slt clock (overTime (spanEnd widths starts)))

/-- Whether time step t of batch b is masked: it lies in one of the batch's two spans (an or over the span axis, from false). -/
def isMasked (widths starts : IVec Spans 32) : IVec Rows 1 :=
  Host.reduce IntOp.ori (inSpan widths starts) (constantI One 1 0#1) grid_to_rows one_pos

/-- The keep factor per batch and time step: the float 0 where masked, the float 1 elsewhere. -/
def keepFactor (widths starts : IVec Spans 32) : FVec F Rows .f32 :=
  select (isMasked widths starts)
    (broadcastInDim Rows ![] one_to_rows (constant (F := F) One .f32 0x00000000#32))
    (broadcastInDim Rows ![] one_to_rows (constant (F := F) One .f32 0x3F800000#32))

/-- THE KEEP MASK: the keep factors as one row per batch, with a unit channel axis. -/
def keep (widths starts : IVec Spans 32) : FVec F KeepRows .f32 :=
  broadcastInDim KeepRows ![0, 2] rows_to_keep (keepFactor (F := F) widths starts)

/-! ## The masked signal -/

/-- The keep row that signal index (b, c, t) reads: (b, 0, t). -/
def rowOf (i : Signal.Idx) : KeepRows.Idx := fun a => match a with
  | ⟨0, _⟩ => ⟨(i 0).val, (i 0).isLt⟩
  | ⟨1, _⟩ => ⟨0, Nat.one_pos⟩
  | ⟨2, _⟩ => ⟨(i 2).val, (i 2).isLt⟩

/-- THE MASKED SIGNAL: out[b, c, t] = x[b, c, t] · k[b, 0, t], for any signal and any keep array. -/
def masked (x : FVec F Signal .f32) (k : FVec F KeepRows .f32) : FVec F Signal .f32 :=
  fun i => FloatOps.mulf (x i) (k (rowOf i))

/-- The signal's shape from the keep rows' by repeating each row over the 512 channels. -/
theorem keep_to_signal : KeepRows.BroadcastsInDim Signal (![0, 1, 2] : Fin 3 → Fin Signal.rank) := by decide

/-- Multiplying by the keep rows REPEATED OVER THE CHANNELS is the masked signal: entry (b, c, t) of the repeated array is
    k[b, 0, t], whatever the proof that the shapes allow the repetition. -/
theorem mul_repeated_rows (x : FVec F Signal .f32) (k : FVec F KeepRows .f32)
    (h : KeepRows.BroadcastsInDim Signal (![0, 1, 2] : Fin 3 → Fin Signal.rank)) :
    mulf x (broadcastInDim Signal ![0, 1, 2] h k) = masked x k := by
  funext i
  show FloatOps.mulf (x i) (broadcastInDim Signal ![0, 1, 2] h k i) = FloatOps.mulf (x i) (k (rowOf i))
  refine congrArg (FloatOps.mulf (x i)) ?_
  exact broadcastInDim_apply _ h k i (rowOf i) (fun a => match a with
    | ⟨0, _⟩ => by show (i 0).val = if (16 : Nat) = 1 then 0 else (i 0).val; rw [if_neg (by decide)]
    | ⟨1, _⟩ => by show 0 = if (1 : Nat) = 1 then 0 else (i 1).val; rw [if_pos rfl]
    | ⟨2, _⟩ => by show (i 2).val = if (4000 : Nat) = 1 then 0 else (i 2).val; rw [if_neg (by decide)])

end TimeMask

end
-- ==== Proof.KernelEntry.lean ====
/-
  What the kernel's region finds in its second operand. Before the region, the host part of the kernel program computes the
  keep mask from `widths` and `starts` — the clock, the two comparisons per span, the or over the spans, the select
  between the float 0 and 1, and the unit channel axis — and leaves it in the [16, 1, 4000] array the region stages as its
  keep rows. Read back operation by operation, that array holds exactly `TimeMask.keep widths starts`; the signal and the
  two integer arrays are untouched by the host part.
-/
import proofs.«105707_j51307679318730_1_alg».proof.Proof.Gen.KernelIdeal.Frame
import proofs.«105707_j51307679318730_1_alg».proof.Proof.MaskSpec
import Idealize.ShloMosaic.Lib.StableHlo.Run

noncomputable section

namespace Cert.KernelIdeal.Masking

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- At region entry the keep-row array holds the keep mask of the launch contents of `widths` and `starts`. -/
theorem keep_at_entry (c : Dev nD) :
    V m c main_v17 = TimeMask.keep (F := F) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results
  -- the outlined select carries its operands through transports along equations between equal types: the identity
  simp only [TRef.toBuf, TRef.ofBuf, cast_cast, cast_eq]
  rfl

end Cert.KernelIdeal.Masking

end
-- ==== Proof.KernelArray.lean ====
/-
  From the kernel's blocks to its whole output array.

  The region runs over a 16 × 4 grid. At point (b, q) the body sees block (b, q, 0) of the signal — batch b, channels
  128q … 128q + 127, every time step — and block (b, 0, 0) of the keep rows — batch b's one row —, and stores
  signal-block · (row broadcast over the 128 channels) into block (b, q, 0) of the output. So entry (0, r, t) of what point
  (b, q) writes back is x[b, 128q + r, t] · k[b, 0, t]: the output block is the block of `TimeMask.masked x k` at the same
  place. The 64 blocks tile the [16, 512, 4000] array (channel 128q + r is covered by q = (channel) / 128), so after the run
  the whole array is `TimeMask.masked x k`, with x the signal and k the keep rows as the region finds them.
-/
import proofs.«105707_j51307679318730_1_alg».proof.Proof.Gen.KernelIdeal.Value
import proofs.«105707_j51307679318730_1_alg».proof.Proof.MaskSpec
import Idealize.ShloMosaic.Lib.Pipeline.Value

noncomputable section

namespace Cert.KernelIdeal.Masking

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One block: signal block times the broadcast keep row -/

/-- The keep-row entry that entry (0, r, t) of a signal block multiplies: (0, 0, t). -/
def rowEntry (j : S1x128x4000.Idx) : S1x1x4000.Idx := fun a => match a with
  | ⟨0, _⟩ => ⟨0, Nat.one_pos⟩
  | ⟨1, _⟩ => ⟨0, Nat.one_pos⟩
  | ⟨2, _⟩ => ⟨(j 2).val, (j 2).isLt⟩

/-- The body's stored value at entry (0, r, t): the signal block's entry times the keep row's entry at t. -/
theorem stored_apply (xs : Vec F S1x128x4000 .f32) (ks : Vec F S1x1x4000 .f32) (j : S1x128x4000.Idx) :
    k0_pay1 ks xs j = FloatOps.mulf (xs j) (ks (rowEntry j)) := by
  have hj0 : (j 0).val < 1 := (j 0).isLt
  rw [Value.piece2_0 xs ks j]
  show FloatOps.mulf (xs (Value.ix2_0 (r0_1.idx j))) (ks (Value.ix2_1 (r0_1.idx j))) = _
  have e0 : Value.ix2_0 (r0_1.idx j) = j := by
    funext a; apply Fin.ext
    match a with
    | ⟨0, _⟩ => show 0 = (j 0).val; omega
    | ⟨1, _⟩ => show (0 + 1 * (j 1).val) = (j 1).val; omega
    | ⟨2, _⟩ => show (0 + 1 * (j 2).val) = (j 2).val; omega
  have e1 : Value.ix2_1 (r0_1.idx j) = rowEntry j := by
    funext a; apply Fin.ext
    match a with
    | ⟨0, _⟩ => rfl
    | ⟨1, _⟩ => rfl
    | ⟨2, _⟩ => show (0 + 1 * (j 2).val) = (j 2).val; omega
  rw [e0, e1]

/-! ## Where the blocks sit -/

theorem zero_offsets : (![0, 0, 0] : Fin 3 → Nat) = fun _ => 0 := funext fun a => by fin_cases a <;> rfl

/-- The three index maps over the grid: the signal's block moves with the output's; the keep rows' block follows the
    output's batch coordinate and stays at 0 on the other two axes; the output's block index is (batch, channel tile, 0). -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (batch, channel tile) is some grid point's output block. -/
theorem block_of_tile : ∀ (b : Fin 16) (q : Fin 4), ∃ t : Fin cfg0.N, win0_2.index t = ![b.val, q.val, 0] :=
  (by decide +kernel : ∀ (b : Fin 16) (q : Fin 4), ∃ t : Fin grid0.N, win0_2.index t = ![b.val, q.val, 0])

/-! ## What a point writes back -/

/-- WHAT POINT `t` WRITES BACK is block `t` of the masked signal, of the signal and the keep rows as the region finds them. -/
theorem block_written (c : Dev nD) (t : Fin cfg0.N) :
    (dats m 0 c).flushed 2 t
      = ((cfg0.win 2).blk t).view.read (Elt F) (TimeMask.masked (F := F) (V m c main_arg0) (V m c main_v17)) := by
  show (cfg0.win 2).cut (grid0.coords t) ((dats m 0 c).after 2 t) = _
  rw [after0_2]
  unfold out0_2
  rw [View.canon_unit_zero zero_offsets]
  simp only [View.ld_unit_zero (S := S1x128x4000) zero_offsets, View.ld_unit_zero (S := S1x1x4000) zero_offsets]
  obtain ⟨e0, e1, e2, e3, e4, e5, e6⟩ := block_indices t
  funext j
  have hj0 : (j 0).val < 1 := (j 0).isLt
  show k0_pay1 (iblk m c 1 t) (iblk m c 0 t) j
      = FloatOps.mulf (V m c main_arg0 (((cfg0.win 2).blk t).view.emb j))
          (V m c main_v17 (TimeMask.rowOf (((cfg0.win 2).blk t).view.emb j)))
  refine (stored_apply (F := F) (iblk m c 0 t) (iblk m c 1 t) j).trans ?_
  show FloatOps.mulf (V m c main_arg0 (((cfg0.win 0).blk t).view.emb j))
        (V m c main_v17 (((cfg0.win 1).blk t).view.emb (rowEntry j)))
      = _
  have h0 : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 4000 + 1 * (j 2).val = win0_2.index t (2 : Fin 3) * 4000 + 1 * (j 2).val; omega
  have h1 : ((cfg0.win 1).blk t).view.emb (rowEntry j) = TimeMask.rowOf (((cfg0.win 2).blk t).view.emb j) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 1 + 1 * 0 = 0; omega
    | ⟨2, _⟩ => show win0_1.index t (2 : Fin 3) * 4000 + 1 * (j 2).val = win0_2.index t (2 : Fin 3) * 4000 + 1 * (j 2).val; omega
  rw [h0, h1]

/-! ## The blocks tile the array -/

/-- An index of the output array is in point `t`'s block iff each coordinate is in the block's range on its axis. -/
theorem mem_block (t : Fin cfg0.N) (i : S16x512x4000.Idx) :
    i ∈ ((cfg0.win 2).blk t).view.set
      ↔ ∀ a : Fin 3, win0_2.index t a * S1x128x4000.size a ≤ (i a).val
          ∧ (i a).val < win0_2.index t a * S1x128x4000.size a + S1x128x4000.size a := by
  show i ∈ ((View.whole main_v18).slice (win0_2.rect t)).set ↔ _
  rw [View.set_slice_whole, Rect.mem_set_unit]
  exact Iff.rfl

/-- Every output index (b, ch, t) lies in the block of the point with tile (b, ch / 128), which writes back. -/
theorem tiles_cover (i : S16x512x4000.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 4000 := (i 2).isLt
  obtain ⟨t, ht⟩ := block_of_tile ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 4000 ≤ (i 2).val ∧ (i 2).val < win0_2.index t (2 : Fin 3) * 4000 + 4000; omega

/-! ## The whole array -/

/-- THE OUTPUT ARRAY after the run is the masked signal of the signal and the keep rows as the region finds them. -/
theorem output_array (c : Dev nD) :
    (dats m 0 c).arrAt 2 cfg0.N = TimeMask.masked (F := F) (V m c main_arg0) (V m c main_v17) :=
  (dats m 0 c).arrAt_eq_of_cover 2 (TimeMask.masked (F := F) (V m c main_arg0) (V m c main_v17))
    (fun t _ => block_written m c t) tiles_cover

end Cert.KernelIdeal.Masking

end
-- ==== Proof.KernelRun.lean ====
/-
  The kernel program's run, read back. Its output array ends at the masked signal of the signal and the keep rows AS THE
  REGION FINDS THEM (the 64 blocks, tiled); the region finds the signal as launched, since the host part never writes it, and
  the keep rows at `TimeMask.keep widths starts`, which the host part computed. So the result is

      TimeMask.masked x (TimeMask.keep widths starts)

  of the launch contents, and the three argument arrays end unchanged.
-/
import proofs.«105707_j51307679318730_1_alg».proof.Proof.KernelEntry
import proofs.«105707_j51307679318730_1_alg».proof.Proof.KernelArray

noncomputable section

namespace Cert.KernelIdeal.Masking

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The output array after the run, as a function of the launch contents. -/
theorem output_of_launch (c : Dev nD) :
    (dats m 0 c).arrAt 2 cfg0.N
      = TimeMask.masked (F := F) (m ((c : Thread nD τ).loc main_arg0))
          (TimeMask.keep (F := F) (m ((c : Thread nD τ).loc main_arg1)) (m ((c : Thread nD τ).loc main_arg2))) := by
  rw [output_array m c, V_main_arg0 m c, keep_at_entry m c]

/-- THE RUN: from any memory with zero counters every weakly fair execution of the kernel program terminates, its result at
    the masked signal of the launch contents and its three arguments unchanged. -/
theorem run : θ_run defs (onTc (τ := τ) (main (F := F))) ⟨m, fun _ => 0, ρ⟩ fun r => ∀ c : Dev nD,
      r.2.mem ((c : Thread nD τ).loc main_v18)
        = TimeMask.masked (F := F) (m ((c : Thread nD τ).loc main_arg0))
            (TimeMask.keep (F := F) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (output_of_launch m c), (h c).2⟩)
    (Cert.KernelIdeal.Value.run_blocks m ρ)

end Cert.KernelIdeal.Masking

end
-- ==== Proof.ReferenceRun.lean ====
/-
  The reference program's run, read back. The reference has no kernel: it is a straight line of 26 host operations — the
  same 24 that compute the keep mask from `widths` and `starts` (the select between the float 0 and 1 written as a small
  function of its own, whose three operations stand here in its call's place), then the keep rows repeated over the 512
  channels, then the product with the signal. Every weakly fair execution of such a line terminates with each buffer at the
  fold of the operations' results over the launch contents; read at the result buffer, that fold is

      x · (keep rows repeated over the channels) = TimeMask.masked x (TimeMask.keep widths starts),

  and the three argument arrays are written by no operation.
-/
import proofs.«105707_j51307679318730_1_alg».proof.Proof.Gen.ReferenceIdeal
import proofs.«105707_j51307679318730_1_alg».proof.Proof.MaskSpec
import Idealize.ShloMosaic.Lib.StableHlo.Run

noncomputable section

namespace Cert.ReferenceIdeal.Masking

open Cert.ReferenceIdeal Cert.ReferenceIdeal.Gen Idealize.ShloMosaic Idealize.ShloMosaic.TcCoe Idealize.SL.Sem
open Idealize.ShloMosaic.StableHlo

variable {F : FTy → Type} [FloatOps F]

/-- The program's 26 operations, in order. -/
abbrev ops : List (HloOp τ sig (Elt F)) :=
  [ nullary main_c (constantI S_ 32 1#32),
    unary main_c main_v0 (broadcastInDim S16x2 ![] bcast_S_S16x2 : (⟨S_, .i32⟩ : BufTy).Contents (Elt F) → (⟨S16x2, .i32⟩ : BufTy).Contents (Elt F)),
    binary main_arg1 main_v0 main_v1 (addi : (⟨S16x2, .i32⟩ : BufTy).Contents (Elt F) → (⟨S16x2, .i32⟩ : BufTy).Contents (Elt F) → (⟨S16x2, .i32⟩ : BufTy).Contents (Elt F)),
    nullary main_v2 (iotaInDim S4000 32 0),
    unary main_arg2 main_v3 (broadcastInDim S16x2x1 ![0, 1] bcast_S16x2_S16x2x1_0_1 : (⟨S16x2, .i32⟩ : BufTy).Contents (Elt F) → (⟨S16x2x1, .i32⟩ : BufTy).Contents (Elt F)),
    binary main_arg2 main_v1 main_v4 (addi : (⟨S16x2, .i32⟩ : BufTy).Contents (Elt F) → (⟨S16x2, .i32⟩ : BufTy).Contents (Elt F) → (⟨S16x2, .i32⟩ : BufTy).Contents (Elt F)),
    unary main_v4 main_v5 (broadcastInDim S16x2x1 ![0, 1] bcast_S16x2_S16x2x1_0_1 : (⟨S16x2, .i32⟩ : BufTy).Contents (Elt F) → (⟨S16x2x1, .i32⟩ : BufTy).Contents (Elt F)),
    unary main_v2 main_v6 (broadcastInDim S1x1x4000 ![2] bcast_S4000_S1x1x4000_2 : (⟨S4000, .i32⟩ : BufTy).Contents (Elt F) → (⟨S1x1x4000, .i32⟩ : BufTy).Contents (Elt F)),
    unary main_v6 main_v7 (broadcastInDim S16x2x4000 ![0, 1, 2] bcast_S1x1x4000_S16x2x4000_0_1_2 : (⟨S1x1x4000, .i32⟩ : BufTy).Contents (Elt F) → (⟨S16x2x4000, .i32⟩ : BufTy).Contents (Elt F)),
    unary main_v3 main_v8 (broadcastInDim S16x2x4000 ![0, 1, 2] bcast_S16x2x1_S16x2x4000_0_1_2 : (⟨S16x2x1, .i32⟩ : BufTy).Contents (Elt F) → (⟨S16x2x4000, .i32⟩ : BufTy).Contents (Elt F)),
    binary main_v7 main_v8 main_v9 (cmpi .sge : (⟨S16x2x4000, .i32⟩ : BufTy).Contents (Elt F) → (⟨S16x2x4000, .i32⟩ : BufTy).Contents (Elt F) → (⟨S16x2x4000, .i1⟩ : BufTy).Contents (Elt F)),
    unary main_v2 main_v10 (broadcastInDim S1x1x4000 ![2] bcast_S4000_S1x1x4000_2 : (⟨S4000, .i32⟩ : BufTy).Contents (Elt F) → (⟨S1x1x4000, .i32⟩ : BufTy).Contents (Elt F)),
    unary main_v10 main_v11 (broadcastInDim S16x2x4000 ![0, 1, 2] bcast_S1x1x4000_S16x2x4000_0_1_2 : (⟨S1x1x4000, .i32⟩ : BufTy).Contents (Elt F) → (⟨S16x2x4000, .i32⟩ : BufTy).Contents (Elt F)),
    unary main_v5 main_v12 (broadcastInDim S16x2x4000 ![0, 1, 2] bcast_S16x2x1_S16x2x4000_0_1_2 : (⟨S16x2x1, .i32⟩ : BufTy).Contents (Elt F) → (⟨S16x2x4000, .i32⟩ : BufTy).Contents (Elt F)),
    binary main_v11 main_v12 main_v13 (cmpi .slt : (⟨S16x2x4000, .i32⟩ : BufTy).Contents (Elt F) → (⟨S16x2x4000, .i32⟩ : BufTy).Contents (Elt F) → (⟨S16x2x4000, .i1⟩ : BufTy).Contents (Elt F)),
    binary main_v9 main_v13 main_v14 (andi : (⟨S16x2x4000, .i1⟩ : BufTy).Contents (Elt F) → (⟨S16x2x4000, .i1⟩ : BufTy).Contents (Elt F) → (⟨S16x2x4000, .i1⟩ : BufTy).Contents (Elt F)),
    nullary main_c_0 (constantI S_ 1 0#1),
    binary main_v14 main_c_0 main_v15 ((fun x v => Host.reduce IntOp.ori x v reducesTo_S16x2x4000_S16x4000_d1 h_S_) : (⟨S16x2x4000, .i1⟩ : BufTy).Contents (Elt F) → (⟨S_, .i1⟩ : BufTy).Contents (Elt F) → (⟨S16x4000, .i1⟩ : BufTy).Contents (Elt F)),
    nullary main_cst (constant S_ .f32 0x00000000#32),
    nullary main_cst_1 (constant S_ .f32 0x3F800000#32),
    TRef.unary (TRef.of (T := ⟨S_, .f32⟩) main_cst) (TRef.of (T := ⟨S16x4000, .f32⟩) main_call0_v0) (broadcastInDim S16x4000 ![] bcast_S_S16x4000),
    TRef.unary (TRef.of (T := ⟨S_, .f32⟩) main_cst_1) (TRef.of (T := ⟨S16x4000, .f32⟩) main_call0_v1) (broadcastInDim S16x4000 ![] bcast_S_S16x4000),
    TRef.ternary (TRef.of (T := ⟨S16x4000, .i1⟩) main_v15) (TRef.of (T := ⟨S16x4000, .f32⟩) main_call0_v0) (TRef.of (T := ⟨S16x4000, .f32⟩) main_call0_v1) (TRef.of (T := ⟨S16x4000, .f32⟩) main_v16) select,
    unary main_v16 main_v17 (broadcastInDim S16x1x4000 ![0, 2] bcast_S16x4000_S16x1x4000_0_2 : (⟨S16x4000, .f32⟩ : BufTy).Contents (Elt F) → (⟨S16x1x4000, .f32⟩ : BufTy).Contents (Elt F)),
    unary main_v17 main_v18 (broadcastInDim S16x512x4000 ![0, 1, 2] bcast_S16x1x4000_S16x512x4000_0_1_2 : (⟨S16x1x4000, .f32⟩ : BufTy).Contents (Elt F) → (⟨S16x512x4000, .f32⟩ : BufTy).Contents (Elt F)),
    binary main_arg0 main_v18 main_v19 (mulf : (⟨S16x512x4000, .f32⟩ : BufTy).Contents (Elt F) → (⟨S16x512x4000, .f32⟩ : BufTy).Contents (Elt F) → (⟨S16x512x4000, .f32⟩ : BufTy).Contents (Elt F)) ]

/-- The program is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Each operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., nullary_bufs_sub .., binary_bufs_sub .., nullary_bufs_sub .., nullary_bufs_sub .., unary_bufs_sub .., unary_bufs_sub .., ternary_bufs_sub .., unary_bufs_sub .., unary_bufs_sub .., binary_bufs_sub ..⟩

/-- THE RESULT BUFFER after the line: the signal times the keep rows repeated over the channels, which is the masked signal
    of the launch contents. -/
theorem result_masked (m : (ℓ : Loc nD τ sig) → Buf (Elt F) ℓ) (c : Dev nD) :
    after (ops (F := F)) (launchContents m c) (Proc.devRef .tc main_v19)
      = TimeMask.masked (F := F) (m ((c.tc : Thread nD τ).loc main_arg0))
          (TimeMask.keep (F := F) (m ((c.tc : Thread nD τ).loc main_arg1)) (m ((c.tc : Thread nD τ).loc main_arg2))) := by
  after_results
  -- the outlined select carries its operands through transports along equations between equal types: the identity
  simp only [TRef.toBuf, TRef.ofBuf, cast_cast, cast_eq]
  exact TimeMask.mul_repeated_rows (F := F) (m ((c.tc : Thread nD τ).loc main_arg0))
    (TimeMask.keep (F := F) (m ((c.tc : Thread nD τ).loc main_arg1)) (m ((c.tc : Thread nD τ).loc main_arg2)))
    bcast_S16x1x4000_S16x512x4000_0_1_2

/-- THE RUN: from any memory with zero counters every weakly fair execution of the reference terminates, its result at the
    masked signal of the launch contents and its three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = TimeMask.masked (F := F) (m ((c.tc : Thread nD τ).loc main_arg0))
            (TimeMask.keep (F := F) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (result_masked m c),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.ReferenceIdeal.Masking

end
-- ==== Proof.Claims.lean ====
/-
  The five claims. Both idealized programs compute

      out[b, c, t] = x[b, c, t] · keep[b, 0, t],    keep = TimeMask.keep widths starts,

  the kernel block by block over its 16 × 4 grid with the keep row broadcast over a block's 128 channels, the reference with
  the keep rows repeated over all 512 channels and one whole-array product. The factors stand in the same order on both
  sides and the keep mask is the same term of `widths` and `starts`, so the two results are one function of the
  arguments: no law of the extended reals is needed beyond reading each side index by index, and the finiteness of the
  inputs is never used. The word-level kernel's frame and the idealized kernel's are the generated ones; the reference's is
  its run with the result dropped. The ideal pass rewrote nothing in the kernel, so there is nothing to preserve.
-/
import proofs.«105707_j51307679318730_1_alg».proof.Defs
import proofs.«105707_j51307679318730_1_alg».proof.Proof.Gen.Pre_finite_inputs
import proofs.«105707_j51307679318730_1_alg».proof.Proof.Gen.Kernel.Frame
import proofs.«105707_j51307679318730_1_alg».proof.Proof.KernelRun
import proofs.«105707_j51307679318730_1_alg».proof.Proof.ReferenceRun

noncomputable section

namespace Cert.Proof.MaskingClaims

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Masking.run (F := Ideal) m ρ)

theorem preserves : Cert.preserves_Kernel_KernelIdeal := trivial

/-- From memories agreeing on the arguments, both runs end with the result at the masked signal of those arguments. -/
theorem algebraic : Cert.algebraic_KernelIdeal_ReferenceIdeal := by
  intro m ρ m' ρ' _ hagree
  refine ⟨_, Cert.KernelIdeal.Masking.run (F := Ideal) m ρ, ?_⟩
  refine (θ_run Cert.ReferenceIdeal.defs _ _).mono (fun _ h c => ⟨(h c).1.trans ?_, (h c).2⟩)
    (Cert.ReferenceIdeal.Masking.run (F := Ideal) m' ρ')
  rw [(hagree c).1, (hagree c).2.1, (hagree c).2.2]

end Cert.Proof.MaskingClaims

end
-- ==== Proof.lean ====
/-
  Time-span masking of a signal x[b, c, t] — 16 batches, 512 channels, 4000 time steps — by two spans per batch: a time step t
  of batch b is masked when starts[b, j] ≤ t < starts[b, j] + widths[b, j] + 1 for one of the batch's two spans j, and

      out[b, c, t] = x[b, c, t] · keep[b, 0, t],    keep[b, 0, t] = 0 at a masked step, 1 elsewhere.

  The kernel program computes the keep rows on the host, then multiplies block by block over a 16 × 4 grid (one batch and 128
  channels per block, the batch's keep row broadcast over the block's channels); the reference computes the same keep rows by
  the same operations, repeats them over the channels and multiplies once. Read index by index both results are the one
  function `TimeMask.masked x (TimeMask.keep widths starts)` of the arguments (Proof/MaskSpec.lean states it; Proof/KernelEntry,
  KernelArray and KernelRun read the kernel program, Proof/ReferenceRun the reference, Proof/Claims sets them side by side).
-/
import proofs.«105707_j51307679318730_1_alg».proof.Defs
import proofs.«105707_j51307679318730_1_alg».proof.Proof.Gen.Kernel
import proofs.«105707_j51307679318730_1_alg».proof.Proof.Gen.KernelIdeal
import proofs.«105707_j51307679318730_1_alg».proof.Proof.Gen.ReferenceIdeal
import proofs.«105707_j51307679318730_1_alg».proof.Proof.Gen.Pre_finite_inputs
import proofs.«105707_j51307679318730_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    MaskingClaims.frame_kernel, MaskingClaims.frame_kernel_ideal, MaskingClaims.frame_reference_ideal,
    MaskingClaims.preserves, MaskingClaims.algebraic⟩

end Cert.Proof

end
